-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x128 : Shape := ⟨2, ![1048576, 128]⟩
abbrev S_ : Shape := ⟨0, ![]⟩

class Facts : Prop where
  bcast_S_S1048576x128 : S_.BroadcastsInDim S1048576x128 (![] : Fin 0 → Fin S1048576x128.rank)
  reducesTo_S1048576x128_S_d0_1 : S1048576x128.ReducesTo [0, 1] S_
  h_S_ : 0 < S_.numel

variable [Facts]

def fn {F : FTy → Type} [FloatOps F] (main_arg0 : FVec F S1048576x128 .f32) : IVec S_ 1 :=
  let main_v0 : FVec F S1048576x128 .f32 := Host.absf main_arg0
  let main_cst : FVec F S_ .f32 := constant S_ .f32 0x7F800000#32
  let main_v1 : FVec F S1048576x128 .f32 := broadcastInDim S1048576x128 ![] bcast_S_S1048576x128 main_cst
  let main_v2 : IVec S1048576x128 1 := cmpf .olt main_v0 main_v1
  let main_c : IVec S_ 1 := constantI S_ 1 1#1
  let main_v3 : IVec S_ 1 := (fun x v => Host.reduce IntOp.andi x v reducesTo_S1048576x128_S_d0_1 h_S_) main_v2 main_c
  main_v3
-- ==== Kernel.lean ====
abbrev S1048576x128 : Shape := ⟨2, ![1048576, 128]⟩
abbrev S16384x128 : Shape := ⟨2, ![16384, 128]⟩
abbrev S16384 : Shape := ⟨1, ![16384]⟩
abbrev S16384x1 : Shape := ⟨2, ![16384, 1]⟩

abbrev nBuf : Space → Nat
  | .hbm => 2
  | .vmem => 4
  | .smem => 0
  | _ => 0

abbrev bufTy : (tb : Table) → Fin (tcTables nBuf tb) → BufTy
  | .hbm, ⟨0, _⟩ => ⟨S1048576x128, .f32⟩
  | .hbm, ⟨1, _⟩ => ⟨S1048576x128, .f32⟩
  | .local _ .vmem, ⟨0, _⟩ => ⟨S16384x128, .f32⟩
  | .local _ .vmem, ⟨1, _⟩ => ⟨S16384x128, .f32⟩
  | .local _ .vmem, ⟨2, _⟩ => ⟨S16384x128, .f32⟩
  | .local _ .vmem, ⟨3, _⟩ => ⟨S16384x128, .f32⟩
  | _, _ => ⟨S1048576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S16384x128_S16384x128_0_0 : ∀ a, (![0, 0] : Fin 2 → Nat) a + S16384x128.size a ≤ S16384x128.size a
  h_S16384x128 : 0 < S16384x128.numel
  reduces_S16384x128_S16384 : S16384x128.Reduces [1] S16384
  shapeCasts_S16384_S16384x1 : S16384.ShapeCasts S16384x1
  broadcasts_S16384x1_S16384x128 : S16384x1.Broadcasts S16384x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S1048576x128.size a
  hwx0_0 : ∀ i : grid0.Coords, EltTy.bits .f32 = 32 ∨ (Rect.block (s := S1048576x128) S16384x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S1048576x128.size a
  hwx0_1 : ∀ i : grid0.Coords, EltTy.bits .f32 = 32 ∨ (Rect.block (s := S1048576x128) S16384x128.size (cc0_transform_1 i) (hinb0_1 i)).WholeWords (EltTy.packing .f32)

variable [Facts₀]

abbrev win0_0 : Pipeline.Window sig grid0 :=
  Pipeline.Window.ofSpec (Memref.whole main_arg0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16384x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1048576x128 : Shape := ⟨2, ![1048576, 128]⟩
abbrev S_ : Shape := ⟨0, ![]⟩
abbrev S1048576 : Shape := ⟨1, ![1048576]⟩
abbrev S1048576x1 : Shape := ⟨2, ![1048576, 1]⟩

abbrev nBuf : Space → Nat
  | .hbm => 22
  | .vmem => 0
  | .smem => 0
  | _ => 0

abbrev bufTy : (tb : Table) → Fin (tcTables nBuf tb) → BufTy
  | .hbm, ⟨0, _⟩ => ⟨S1048576x128, .f32⟩
  | .hbm, ⟨1, _⟩ => ⟨S1048576x128, .f32⟩
  | .hbm, ⟨2, _⟩ => ⟨S_, .f32⟩
  | .hbm, ⟨3, _⟩ => ⟨S1048576, .f32⟩
  | .hbm, ⟨4, _⟩ => ⟨S1048576x1, .f32⟩
  | .hbm, ⟨5, _⟩ => ⟨S1048576x1, .f32⟩
  | .hbm, ⟨6, _⟩ => ⟨S_, .f32⟩
  | .hbm, ⟨7, _⟩ => ⟨S1048576x1, .f32⟩
  | .hbm, ⟨8, _⟩ => ⟨S1048576x1, .i1⟩
  | .hbm, ⟨9, _⟩ => ⟨S_, .f32⟩
  | .hbm, ⟨10, _⟩ => ⟨S1048576x128, .f32⟩
  | .hbm, ⟨11, _⟩ => ⟨S_, .f32⟩
  | .hbm, ⟨12, _⟩ => ⟨S1048576x1, .f32⟩
  | .hbm, ⟨13, _⟩ => ⟨S1048576x1, .i1⟩
  | .hbm, ⟨14, _⟩ => ⟨S_, .f32⟩
  | .hbm, ⟨15, _⟩ => ⟨S_, .f32⟩
  | .hbm, ⟨16, _⟩ => ⟨S1048576x1, .f32⟩
  | .hbm, ⟨17, _⟩ => ⟨S1048576x1, .f32⟩
  | .hbm, ⟨18, _⟩ => ⟨S1048576x128, .f32⟩
  | .hbm, ⟨19, _⟩ => ⟨S1048576x128, .f32⟩
  | .hbm, ⟨20, _⟩ => ⟨S1048576x128, .i1⟩
  | .hbm, ⟨21, _⟩ => ⟨S1048576x128, .f32⟩
  | _, _ => ⟨S1048576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_cst_3 : Ref sig .tc := ⟨.hbm, 14, rfl⟩
abbrev main_call0_v0 : Ref sig .tc := ⟨.hbm, 15, rfl⟩
abbrev main_call0_v1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call1_v0 : Ref sig .tc := ⟨.hbm, 20, rfl⟩
abbrev main_v12 : Ref sig .tc := ⟨.hbm, 21, rfl⟩

abbrev nD : Nat := 1
abbrev τ : Topo := Topo.v7x

variable {F : FTy → Type} [FloatOps F]

class Facts₀ : Prop where
  reducesTo_S1048576x128_S1048576_d1 : S1048576x128.ReducesTo [1] S1048576
  h_S_ : 0 < S_.numel
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  bcast_S_S1048576x128 : S_.BroadcastsInDim S1048576x128 (![] : Fin 0 → Fin S1048576x128.rank)
  bcast_S1048576x1_S1048576x128_0_1 : S1048576x1.BroadcastsInDim S1048576x128 (![0, 1] : Fin 2 → Fin S1048576x128.rank)

variable [Facts₀]

class Facts : Prop extends Facts₀ where

variable [Facts]
-- ==== Proof.RowNorm.lean ====
/-
  Row-wise L2 normalisation on the extended reals.

  A row of the array has a sum of squares `s = ∑ₖ xₖ · xₖ`, an extended real that is never negative (each
  term is a square, and `⊥ · ⊥ = ⊤`). Two ways of scaling an entry `x` of the row by the reciprocal of the row's norm,
  each returning `0` for a row whose norm vanishes:

  * `scaleMul`: `x · (if s = 0 then 0 else rsqrt (if s = 0 then u else s))` — the guard is applied to the
    reciprocal square root and to its operand;
  * `scaleDiv`: `if √s = 0 then 0 else x / (if √s = 0 then u else √s)` — the guard is applied to the quotient
    and to its divisor.

  The stand-in `u` for a vanishing norm is never read on the branch that is kept, so it is a parameter.
  For `0 ≤ s` the two agree (`scaleMul_eq_scaleDiv`): `√s = 0` exactly when `s = 0`; at `s = ⊤` both are
  `x · 0`; and at a positive real `s` the reciprocal square root is the inverse of the square root and the
  quotient by a nonzero real is the product with its inverse.
  `normMul` / `normDiv` apply them along the rows of a `1048576 × 128` array.
-/
import Idealize.ShloMosaic.PureOps.Ideal
import Idealize.ShloMosaic.Lib.ValueIdx

noncomputable section

open scoped BigOperators

namespace Cert.RowNorm

open Idealize.ShloMosaic Idealize.ShloMosaic.ValueIdx

/-- Selecting on the one-bit answer of an equality test is the `if` on the equality. -/
theorem select_cmp_oeq {α : Type} (x y : EReal) (a b : α) :
    Scalar.select (Ideal.cmp .oeq x y) a b = if x = y then a else b := by
  unfold Scalar.select Ideal.cmp
  by_cases h : x = y <;> simp [h]

/-- A square is never negative on the extended reals. -/
theorem mul_self_nonneg (x : EReal) : 0 ≤ x * x := by
  induction x using EReal.rec with
  | bot => simp
  | top => simp
  | coe r => rw [← EReal.coe_mul]; exact_mod_cast _root_.mul_self_nonneg r

/-- Scaling by the guarded reciprocal square root of the sum of squares. -/
def scaleMul (u x s : EReal) : EReal :=
  x * (if s = 0 then 0 else Ideal.rsqrt (if s = 0 then u else s))

/-- Dividing by the guarded square root of the sum of squares. -/
def scaleDiv (u x s : EReal) : EReal :=
  if Ideal.sqrt s = 0 then 0 else Ideal.div x (if Ideal.sqrt s = 0 then u else Ideal.sqrt s)

/-- The square root of zero is zero. -/
theorem sqrt_zero : Ideal.sqrt (0 : EReal) = 0 := by
  show Ideal.sqrt ((0 : ℝ) : EReal) = 0
  rw [Ideal.sqrt_coe]; simp

/-- For a sum of squares `0 ≤ s` the two scalings are one function of `x` and `s`. -/
theorem scaleMul_eq_scaleDiv (u x s : EReal) (hs : 0 ≤ s) : scaleMul u x s = scaleDiv u x s := by
  induction s using EReal.rec with
  | bot => exact absurd hs (by simp)
  | top => simp [scaleMul, scaleDiv, Ideal.div]
  | coe r =>
    have hr : 0 ≤ r := by exact_mod_cast hs
    by_cases h0 : r = 0
    · subst h0; simp [scaleMul, scaleDiv, sqrt_zero]
    · have hpos : 0 < r := lt_of_le_of_ne hr (Ne.symm h0)
      have hsq : Real.sqrt r ≠ 0 := (Real.sqrt_pos.mpr hpos).ne'
      have hne : ((r : ℝ) : EReal) ≠ 0 := by exact_mod_cast h0
      have hsne : ((Real.sqrt r : ℝ) : EReal) ≠ 0 := by exact_mod_cast hsq
      simp only [scaleMul, scaleDiv, if_neg hne, Ideal.rsqrt_coe, Ideal.sqrt_coe, if_neg (not_lt.mpr hr),
        if_neg h0, if_neg hsne, Ideal.div, EReal.coe_inv]

/-! ## Along the rows of the array -/

/-- The array's shape: 1048576 rows of 128 entries. -/
abbrev Arr : Shape := ⟨2, ![1048576, 128]⟩

/-- The sum of the squares of row `r`. -/
def rowSq (X : Arr.Idx → EReal) (r : Fin 1048576) : EReal := ∑ k : Fin 128, X (ix2 r k) * X (ix2 r k)

theorem rowSq_nonneg (X : Arr.Idx → EReal) (r : Fin 1048576) : 0 ≤ rowSq X r :=
  Finset.sum_nonneg fun k _ => mul_self_nonneg (X (ix2 r k))

/-- Every entry times the guarded reciprocal norm of its row. -/
def normMul (u : EReal) (X : Arr.Idx → EReal) : Arr.Idx → EReal :=
  fun i => scaleMul u (X i) (rowSq X (i 0))

/-- Every entry over the guarded norm of its row. -/
def normDiv (u : EReal) (X : Arr.Idx → EReal) : Arr.Idx → EReal :=
  fun i => scaleDiv u (X i) (rowSq X (i 0))

/-- The two normalisations are one function of the array. -/
theorem normMul_eq_normDiv (u : EReal) (X : Arr.Idx → EReal) : normMul u X = normDiv u X :=
  funext fun i => scaleMul_eq_scaleDiv u (X i) (rowSq X (i 0)) (rowSq_nonneg X (i 0))

end Cert.RowNorm

end
-- ==== Proof.KernelNorm.lean ====
/-
  The kernel's result array. Each grid point `t` handles a block of 16384 whole rows: it squares the block, sums each
  row over its 128 lanes, and multiplies every entry by the guarded reciprocal square root of its row's sum — zero for
  a row whose sum is zero. A block holds whole rows, so the lane sum inside the block is the sum over the array's
  row, and what the point writes back is its block of `RowNorm.normMul` of the argument array; the 64 blocks tile the
  array, so the array ends holding that function.
-/
import proofs.«116151_j77214922048067_2_alg».proof.Proof.Gen.KernelIdeal.Value
import proofs.«116151_j77214922048067_2_alg».proof.Proof.RowNorm
import Idealize.ShloMosaic.PureOps.Ideal.Laws
import Idealize.ShloMosaic.Lib.Pipeline.Value
import Idealize.ShloMosaic.Lib.ValueIdx

noncomputable section

open scoped BigOperators

namespace Cert.KernelIdeal.KernelNorm

open Cert.KernelIdeal Cert.KernelIdeal.Gen Cert.KernelIdeal.Value
open Idealize.ShloMosaic Idealize.ShloMosaic.TcCoe Idealize.SL.Sem Idealize.ShloMosaic.ValueIdx Cert.RowNorm
open Idealize.ShloMosaic.Pipeline (Dat)

/-! ## One block -/

/-- At the extended reals a float comparison is the order's. -/
theorem cmpf_ideal (p : CmpFPredicate) (x y : EReal) : FloatOps.cmpf (F := Ideal) (φ := .f32) p x y = Ideal.cmp p x y := rfl

/-- A scalar constant is the extended real its pattern denotes. -/
theorem scalar_ofBits_ideal (b : BitVec 32) : Scalar.ofBits (F := Ideal) .f32 b = Ideal.ofBits .f32 b := rfl

/-- The lane sum of the squared block at row `r` is the sum of the squares of the block's row. -/
theorem block_rowsum (P0 : Vec Ideal S16384x128 .f32) (hφ : FKind.Formats .f32)
    (hacc : (0x00000000#32 : BitVec 32) = 0x00000000#32) (r : Fin 16384) :
    multiReduction (F := Ideal) .add [1] S16384 (mulf P0 P0) 0x00000000#32 reduces_S16384x128_S16384 hφ hacc (ix1 r)
      = ∑ k : Fin 128, P0 (ix2 r k) * P0 (ix2 r k) := by
  refine (Ideal.multiReduction_add_single (mulf P0 P0) 0x00000000#32 reduces_S16384x128_S16384 hφ hacc (ix1 r)).trans ?_
  refine Finset.sum_congr rfl fun k _ => ?_
  have e : reduces_S16384x128_S16384.lift (ix1 r) k = ix2 r k :=
    funext fun a => Fin.ext (by match a with | ⟨0, _⟩ => rfl | ⟨1, _⟩ => rfl)
  show P0 (reduces_S16384x128_S16384.lift (ix1 r) k) * P0 (reduces_S16384x128_S16384.lift (ix1 r) k) = _
  rw [e]; rfl

/-- What the body leaves at entry `(r, q)` of its block: the entry times the guarded reciprocal square root of the
    sum of the squares of the block's row `r`. -/
theorem block_elt (P0 : Vec Ideal S16384x128 .f32) (r : Fin 16384) (q : Fin 128) :
    E1 (F := Ideal) P0 (ix2 r q)
      = scaleMul (Ideal.ofBits .f32 0x3F800000#32) (P0 (ix2 r q)) (∑ k : Fin 128, P0 (ix2 r k) * P0 (ix2 r k)) := by
  have e0 : ix1_0 (ix2 r q) = ix2 r q := funext fun a => Fin.ext (by match a with | ⟨0, _⟩ => rfl | ⟨1, _⟩ => rfl)
  have e1 : ix1_1 (ix2 r q) = ix1 r := funext fun a => Fin.ext (by match a with | ⟨0, _⟩ => rfl)
  have e2 : ix1_2 (ix2 r q) = ix1 r := funext fun a => Fin.ext (by match a with | ⟨0, _⟩ => rfl)
  have e3 : ix1_3 (ix2 r q) = ix1 r := funext fun a => Fin.ext (by match a with | ⟨0, _⟩ => rfl)
  simp only [E1, e0, e1, e2, e3, block_rowsum]
  simp only [cmpf_ideal, scalar_ofBits_ideal, Ideal.mulf_def, Ideal.rsqrt_def, Ideal.ofBits_zero_f32, select_cmp_oeq]
  rw [block_rowsum P0 _ _ r]
  rfl

/-! ## From blocks to the array -/

variable (m : (ℓ : Loc nD τ sig) → Buf (Elt Ideal) ℓ) (ρ : Dev nD → PrngReg)

theorem hz : (![0, 0] : Fin 2 → Nat) = fun _ => 0 := funext fun a => by fin_cases a <;> rfl

/-- The stand-in the body puts in place of a vanishing sum before the reciprocal square root: the pattern of one. -/
abbrev u : EReal := Ideal.ofBits .f32 0x3F800000#32

/-- Point `t` stages the same block of rows for the input and for the output, over all 128 lanes; there are 64 blocks
    of rows. -/
theorem idx_facts : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) ≤ 63 :=
  (by decide +kernel : ∀ t : Fin grid0.N, _)

/-- Every one of the 64 blocks of rows is some point's. -/
theorem idx_onto : ∀ q0 : Fin 64, ∃ t : Fin cfg0.N, win0_1.index t = ![q0.val, 0] :=
  (by decide +kernel : ∀ q0 : Fin 64, ∃ t : Fin grid0.N, win0_1.index t = ![q0.val, 0])

/-- What point `t` writes back is its block of the normalised array: row `r` of the block is row
    `16384 · (block index) + r` of the array, whole, so the lane sum in the block is the array row's sum of squares. -/
theorem flushed_eq (c : Dev nD) (t : Fin cfg0.N) :
    (dats m 0 c).flushed 1 t = ((cfg0.win 1).blk t).view.read (Elt Ideal) (normMul u (V m c main_arg0)) := by
  rw [flushed1]
  unfold out0_1
  simp only [View.ld_unit_zero (S := S16384x128) hz]
  obtain ⟨h00, h01, h11, hle⟩ := idx_facts t
  funext j
  obtain ⟨r, q, rfl⟩ : ∃ (r : Fin 16384) (q : Fin 128), j = ix2 r q := ⟨j 0, j 1, eq_ix2 j⟩
  have hr : r.val < 16384 := r.isLt
  show View.canon ([⟨r0_0, k0_pay1 (iblk m c 0 t)⟩] : List (View.Piece (Elt Ideal) S16384x128 .f32)) (ix2 r q)
    = normMul u (V m c main_arg0) (((cfg0.win 1).blk t).view.emb (ix2 r q))
  refine (canon1_eq (iblk m c 0 t) (ix2 r q)).trans ?_
  refine (block_elt (iblk m c 0 t) r q).trans ?_
  -- the array row under row `r` of the block
  have hR : win0_1.index t (0 : Fin 2) * 16384 + r.val < 1048576 := by omega
  have hemb : ((cfg0.win 1).blk t).view.emb (ix2 r q)
      = ix2 (⟨win0_1.index t (0 : Fin 2) * 16384 + r.val, hR⟩ : Fin 1048576) q := by
    funext a; apply Fin.ext
    match a with
    | ⟨0, _⟩ => show win0_1.index t (0 : Fin 2) * 16384 + 1 * r.val = win0_1.index t (0 : Fin 2) * 16384 + r.val; omega
    | ⟨1, _⟩ => show win0_1.index t (1 : Fin 2) * 128 + 1 * q.val = q.val; omega
  have hblk : ∀ k : Fin 128, iblk m c 0 t (ix2 r k)
      = V m c main_arg0 (ix2 (⟨win0_1.index t (0 : Fin 2) * 16384 + r.val, hR⟩ : Fin 1048576) k) := by
    intro k
    show V m c main_arg0 (((cfg0.win 0).blk t).view.emb (ix2 r k)) = _
    refine congrArg (V m c main_arg0) ?_
    funext a; apply Fin.ext
    match a with
    | ⟨0, _⟩ => show win0_0.index t (0 : Fin 2) * 16384 + 1 * r.val = win0_1.index t (0 : Fin 2) * 16384 + r.val; omega
    | ⟨1, _⟩ => show win0_0.index t (1 : Fin 2) * 128 + 1 * k.val = k.val; omega
  rw [hemb, hblk q]
  show scaleMul u _ _ = scaleMul u _ (rowSq (V m c main_arg0) ⟨_, hR⟩)
  unfold rowSq
  refine congrArg (scaleMul u _) (Finset.sum_congr rfl fun k _ => ?_)
  rw [hblk k]

/-- An index of the array is in point `t`'s block iff each coordinate is in the block's range on its axis. -/
theorem mem_blk (t : Fin cfg0.N) (i : S1048576x128.Idx) :
    i ∈ ((cfg0.win 1).blk t).view.set ↔ ∀ a : Fin 2, win0_1.index t a * S16384x128.size a ≤ (i a).val
      ∧ (i a).val < win0_1.index t a * S16384x128.size a + S16384x128.size a := by
  show i ∈ ((View.whole main_v0).slice (win0_1.rect t)).set ↔ _
  rw [View.set_slice_whole, Rect.mem_set_unit]
  exact Iff.rfl

/-- The 64 blocks of 16384 rows tile the array: row `i` lies in block `i / 16384`. -/
theorem cover (i : S1048576x128.Idx) :
    ∃ t : Fin cfg0.N, (cfg0.win 1).flush t = true ∧ i ∈ ((cfg0.win 1).blk t).view.set := by
  have hi0 : (i 0).val < 1048576 := (i 0).isLt
  have hi1 : (i 1).val < 128 := (i 1).isLt
  obtain ⟨t, ht⟩ := idx_onto ⟨(i 0).val / 16384, by omega⟩
  have q0 : win0_1.index t (0 : Fin 2) = (i 0).val / 16384 := congrFun ht 0
  have q1 : win0_1.index t (1 : Fin 2) = 0 := congrFun ht 1
  refine ⟨t, flush0_1 t, ?_⟩
  rw [mem_blk]
  intro a
  match a with
  | ⟨0, _⟩ => show win0_1.index t (0 : Fin 2) * 16384 ≤ (i 0).val ∧ (i 0).val < win0_1.index t (0 : Fin 2) * 16384 + 16384; omega
  | ⟨1, _⟩ => show win0_1.index t (1 : Fin 2) * 128 ≤ (i 1).val ∧ (i 1).val < win0_1.index t (1 : Fin 2) * 128 + 128; omega

/-- The array after the run is the normalised argument array. -/
theorem final (c : Dev nD) :
    (dats m 0 c).arrAt 1 cfg0.N = normMul u (m ((c : Thread nD τ).loc main_arg0)) :=
  (dats m 0 c).arrAt_eq_of_cover 1 (normMul u (V m c main_arg0)) (fun t _ => flushed_eq m c t) cover

/-- The kernel's run: it ends with the result array at the normalised argument array and the argument unchanged. -/
theorem run : θ_run defs (onTc (τ := τ) (main (F := Ideal))) ⟨m, fun _ => 0, ρ⟩ fun r => ∀ c : Dev nD,
      r.2.mem ((c : Thread nD τ).loc main_v0) = normMul u (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.KernelNorm

end
-- ==== Proof.RefNorm.lean ====
/-
  The host program's result, entry by entry: with `s` the sum of the squares of the entry's row, it is
  `if √s = 0 then 0 else x / (if √s = 0 then 1 else √s)` — the row's norm is the square root of the host's
  sum over the row (started from zero), both guards compare that norm with zero, the inner one replaces a vanishing
  divisor by one and the outer one the quotient by zero. That is `RowNorm.normDiv` of the argument array.
-/
import proofs.«116151_j77214922048067_2_alg».proof.Proof.Gen.ReferenceIdeal.Read
import proofs.«116151_j77214922048067_2_alg».proof.Proof.RowNorm
import Idealize.ShloMosaic.PureOps.Ideal.Laws

noncomputable section

open scoped BigOperators

namespace Cert.ReferenceIdeal.RefNorm

open Cert.ReferenceIdeal Cert.ReferenceIdeal.Read Idealize.ShloMosaic Idealize.ShloMosaic.ValueIdx Cert.RowNorm

/-- At the extended reals a float comparison is the order's. -/
theorem cmpf_ideal (p : CmpFPredicate) (x y : EReal) : FloatOps.cmpf (F := Ideal) (φ := .f32) p x y = Ideal.cmp p x y := rfl

/-- The host's sum over row `r` of the squared array, started from zero, is the row's sum of squares. -/
theorem sum_apply (x0 : (⟨S1048576x128, .f32⟩ : BufTy).Contents (Elt Ideal)) (r : Fin 1048576) :
    val_main_v1 (F := Ideal) x0 (ix1 r) = rowSq x0 r := by
  rw [val_main_v1_apply, val_main_cst_apply]
  show Ideal.ofBits .f32 0x00000000#32 + _ = _
  rw [Ideal.ofBits_zero_f32, zero_add]
  refine Finset.sum_congr rfl fun k _ => ?_
  have e : idx_main_v1 (ix1 r) k = ix2 r k :=
    funext fun a => Fin.ext (by match a with | ⟨0, _⟩ => rfl | ⟨1, _⟩ => rfl)
  rw [val_main_v0_apply, e]
  rfl

/-- The norm column at row `r` is the square root of the row's sum of squares. -/
theorem norm_apply (x0 : (⟨S1048576x128, .f32⟩ : BufTy).Contents (Elt Ideal)) (r : Fin 1048576) :
    val_main_v3 (F := Ideal) x0 (ix2 r (0 : Fin 1)) = Ideal.sqrt (rowSq x0 r) := by
  have e : idx_main_v2 (ix2 r (0 : Fin 1)) = ix1 r := funext fun a => Fin.ext (by match a with | ⟨0, _⟩ => rfl)
  rw [val_main_v3_apply, val_main_v2_apply, e, sum_apply]
  rfl

/-- The last stage of the host program is the quotient form of the row normalisation. -/
theorem result_eq (x0 : (⟨S1048576x128, .f32⟩ : BufTy).Contents (Elt Ideal)) :
    val_main_v12 (F := Ideal) x0 = normDiv (Ideal.ofBits .f32 0x3F800000#32) x0 := by
  funext i
  obtain ⟨r, q, rfl⟩ : ∃ (r : Fin 1048576) (q : Fin 128), i = ix2 r q := ⟨i 0, i 1, eq_ix2 i⟩
  -- both guards read the norm column at the row of the entry
  have ea : idx_main_call1_v0 (ix2 r q) = ix2 r (0 : Fin 1) :=
    funext fun a => Fin.ext (by match a with | ⟨0, _⟩ => rfl | ⟨1, _⟩ => rfl)
  have eb : idx_main_v10 (ix2 r q) = ix2 r (0 : Fin 1) :=
    funext fun a => Fin.ext (by match a with | ⟨0, _⟩ => rfl | ⟨1, _⟩ => rfl)
  rw [val_main_v12_apply, val_main_call1_v0_apply, ea, val_main_v5_apply, val_main_v4_apply, val_main_cst_0_apply,
    val_main_v6_apply, val_main_cst_1_apply, val_main_v11_apply, val_main_v10_apply, eb, val_main_v9_apply,
    val_main_v8_apply, val_main_v7_apply, val_main_cst_2_apply, val_main_call0_v1_apply, val_main_call0_v0_apply,
    val_main_cst_3_apply, norm_apply]
  simp only [cmpf_ideal, Ideal.ofBits_def, Ideal.hostDivf_def, Ideal.ofBits_zero_f32, select_cmp_oeq]
  rfl

end Cert.ReferenceIdeal.RefNorm

end
-- ==== Proof.lean ====
/-
  Row-wise L2 normalisation of a `1048576 × 128` array: the kernel against its host reference, on the extended reals.

  The kernel handles the array in 64 blocks of 16384 whole rows. For a row with sum of squares `s` it multiplies every
  entry `x` by `0` when `s = 0` and by `rsqrt s` otherwise (`RowNorm.normMul`, established block by block in
  `KernelNorm`). The reference takes the norm `√s` and returns `0` when `√s = 0` and `x / √s` otherwise
  (`RowNorm.normDiv`, read off the host program's stages in `RefNorm`). A sum of squares is never negative, so
  `√s = 0` exactly when `s = 0`, and away from zero `x · rsqrt s = x / √s` — at a positive real because the
  reciprocal square root is the inverse of the square root, at `s = ⊤` because both sides are `x · 0`
  (`RowNorm.normMul_eq_normDiv`). No finiteness of the input is needed for that.

  The three frames are the generated ones (the reference's is its generated run with the result dropped). Nothing of
  the kernel was rewritten for its reading on the extended reals, so the conjunct relating the two readings is trivial.
-/
import proofs.«116151_j77214922048067_2_alg».proof.Defs
import proofs.«116151_j77214922048067_2_alg».proof.Proof.Gen.Kernel
import proofs.«116151_j77214922048067_2_alg».proof.Proof.Gen.Kernel.Skeleton
import proofs.«116151_j77214922048067_2_alg».proof.Proof.Gen.Kernel.Launch
import proofs.«116151_j77214922048067_2_alg».proof.Proof.Gen.Kernel.Points
import proofs.«116151_j77214922048067_2_alg».proof.Proof.Gen.Kernel.Frame
import proofs.«116151_j77214922048067_2_alg».proof.Proof.Gen.KernelIdeal
import proofs.«116151_j77214922048067_2_alg».proof.Proof.Gen.KernelIdeal.Skeleton
import proofs.«116151_j77214922048067_2_alg».proof.Proof.Gen.KernelIdeal.Launch
import proofs.«116151_j77214922048067_2_alg».proof.Proof.Gen.KernelIdeal.Points
import proofs.«116151_j77214922048067_2_alg».proof.Proof.Gen.KernelIdeal.Frame
import proofs.«116151_j77214922048067_2_alg».proof.Proof.Gen.ReferenceIdeal
import proofs.«116151_j77214922048067_2_alg».proof.Proof.Gen.KernelIdeal.Value
import proofs.«116151_j77214922048067_2_alg».proof.Proof.Gen.ReferenceIdeal.Run
import proofs.«116151_j77214922048067_2_alg».proof.Proof.Gen.ReferenceIdeal.Read
import proofs.«116151_j77214922048067_2_alg».proof.Proof.Gen.Pre_finite_inputs
import proofs.«116151_j77214922048067_2_alg».proof.Proof.RowNorm
import proofs.«116151_j77214922048067_2_alg».proof.Proof.KernelNorm
import proofs.«116151_j77214922048067_2_alg».proof.Proof.RefNorm
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the argument, the kernel ends with the product form of the normalised array and the
    reference with the quotient form of the same array: one function, because a sum of squares is never negative. -/
theorem algebraic : Cert.algebraic_KernelIdeal_ReferenceIdeal := by
  intro m ρ m' ρ' _ hagree
  refine ⟨_, Cert.KernelIdeal.KernelNorm.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefNorm.result_eq, hagree c,
    ← Cert.RowNorm.normMul_eq_normDiv]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
